-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩
abbrev S100000x1 : Shape := ⟨2, ![100000, 1]⟩
abbrev S64x1 : Shape := ⟨2, ![64, 1]⟩

abbrev nBuf : Space → Nat
  | .hbm => 115
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S1700000x1, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S64, .f32⟩
  | .hbm, ⟨103, _⟩ => ⟨S100000x1, .i32⟩
  | .hbm, ⟨104, _⟩ => ⟨S64, .f32⟩
  | .hbm, ⟨105, _⟩ => ⟨S_, .f32⟩
  | .hbm, ⟨106, _⟩ => ⟨S64x128, .f32⟩
  | .hbm, ⟨107, _⟩ => ⟨S100000x1, .i32⟩
  | .hbm, ⟨108, _⟩ => ⟨S64x128, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x128, .f32⟩
  | .hbm, ⟨114, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩
abbrev S100000x1 : Shape := ⟨2, ![100000, 1]⟩
abbrev S64x1 : Shape := ⟨2, ![64, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S1700000x1, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x128, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S_, .f32⟩
  | .hbm, ⟨110, _⟩ => ⟨S100000, .f32⟩
  | .hbm, ⟨111, _⟩ => ⟨S_, .f32⟩
  | .hbm, ⟨112, _⟩ => ⟨S64, .f32⟩
  | .hbm, ⟨113, _⟩ => ⟨S100000x1, .i32⟩
  | .hbm, ⟨114, _⟩ => ⟨S64, .f32⟩
  | .hbm, ⟨115, _⟩ => ⟨S_, .f32⟩
  | .hbm, ⟨116, _⟩ => ⟨S64x128, .f32⟩
  | .hbm, ⟨117, _⟩ => ⟨S100000x1, .i32⟩
  | .hbm, ⟨118, _⟩ => ⟨S64x128, .f32⟩
  | .hbm, ⟨119, _⟩ => ⟨S_, .f32⟩
  | .hbm, ⟨120, _⟩ => ⟨S64, .f32⟩
  | .hbm, ⟨121, _⟩ => ⟨S64, .f32⟩
  | .hbm, ⟨122, _⟩ => ⟨S64x1, .f32⟩
  | .hbm, ⟨123, _⟩ => ⟨S64x128, .f32⟩
  | .hbm, ⟨124, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

class Facts : Prop extends Facts₀ where

variable [Facts]
-- ==== Proof.KernelRun.lean ====
/-
  The idealized kernel program's run, with EVERY buffer that outlives a kernel region read back at the end.

  The program is seven segments in a row: a stretch of host operations, a pipelined kernel region, and so on, ending
  with a stretch of host operations. The contents of the buffers at each boundary are a fold from the launch memory:
  a stretch of host operations rewrites the buffers its operations write, a region leaves each output array at what
  its write-backs left and every other buffer alone. The generated module proves, segment by segment, that the program
  runs from each boundary's contents to the next one's; here that chain is carried to the end and the final memory is
  read against the last boundary's contents at every buffer, not only at the arguments. So every weakly fair
  execution terminates with the result buffer holding the last boundary's value for it, and with the arguments as
  launched.
-/
import proofs.«182120_j61770219651564_1_alg».proof.Defs
import proofs.«182120_j61770219651564_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every buffer that is not a region's scratch ends at the last
    boundary's contents: the segments chained from the launch, the last thread state read against the final state. -/
theorem run_readback : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run with the result named: the result buffer ends at the last boundary's contents for it, and every
    argument as launched (no host operation and no region writes an argument). -/
theorem run_result : θ_run defs (onTc (τ := τ) (main (F := F))) ⟨m, fun _ => 0, ρ⟩ (fun r => ∀ c : Dev nD,
      r.2.mem ((c.tc : Thread nD τ).loc main_v85) = W7 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v85 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_readback m ρ)

end Cert.KernelIdeal.Whole

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«182120_j61770219651564_1_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibDenseLayer.lean ====
/-
  A dense layer — a matrix product, optionally behind a bias and a rectifier — as one function of whole arrays on the
  extended reals, what one row block of it is, and the host's matrix product as the same function.

  `rowsTimes X W` is the matrix product: entry (p, q) is the sum over k of X(p, k) · W(k, q). `biasRelu S b` adds the
  bias b(k) to column k of S and clamps below at zero. Both are stated on the extended reals, index by index.

  A row block of the product only needs the same rows of the left factor: the product of a block of rows of X with W,
  accumulated into zeros, is — entry by entry — the same sum. The two narrowings to a 16-bit format in front of the
  product are the identity on the extended reals, the block's copy to its own shape is the identity, and the bias row
  [1, K] spread over the block's rows reads column k of the row at every row. The host's plain matrix product
  [A, K] × [K, B], read at an index, is the same sum, so as a whole array it is `rowsTimes`. Every statement is for any
  extents A, K, B.
-/
import Idealize.ShloMosaic.PureOps.Ideal.Laws
import Idealize.ShloMosaic.Lib.ValueIdx
import Idealize.ShloMosaic.Lib.Pipeline.Value
import Idealize.ShloMosaic.Lib.ValueLayout
import proofs.«182120_j61770219651564_1_alg».proof.Proof.LibPlainMatmul
import proofs.«182120_j61770219651564_1_alg».proof.Proof.LibRowBroadcast
import proofs.«182120_j61770219651564_1_alg».proof.Proof.LibPlainDot

noncomputable section

namespace Cert.LibDenseLayer

open Idealize.ShloMosaic Idealize.ShloMosaic.ValueIdx

/-- The matrix product of an [A, K] array with a [K, B] array: entry (p, q) is Σ_k X(p, k) · W(k, q). -/
def rowsTimes (A K B : ℕ) (X : FVec Ideal ⟨2, ![A, K]⟩ .f32) (W : FVec Ideal ⟨2, ![K, B]⟩ .f32) : FVec Ideal ⟨2, ![A, B]⟩ .f32 :=
  fun i => ∑ k : Fin K, X (ix2 (i 0) k) * W (ix2 k (i 1))

/-- Bias, then the rectifier: entry (p, k) is max(S(p, k) + b(k), 0), the zero being the f32 word of 0.0. -/
def biasRelu (A K : ℕ) (S : FVec Ideal ⟨2, ![A, K]⟩ .f32) (b : FVec Ideal ⟨1, ![K]⟩ .f32) : FVec Ideal ⟨2, ![A, K]⟩ .f32 :=
  fun j => max (S j + b (ix1 (j 1))) (Ideal.ofBits .f32 0x00000000#32)

theorem rowsTimes_apply (A K B : ℕ) (X : FVec Ideal ⟨2, ![A, K]⟩ .f32) (W : FVec Ideal ⟨2, ![K, B]⟩ .f32) (p : Fin A) (q : Fin B) :
    rowsTimes A K B X W (ix2 p q) = ∑ k : Fin K, X (ix2 p k) * W (ix2 k q) := rfl

theorem biasRelu_apply (A K : ℕ) (S : FVec Ideal ⟨2, ![A, K]⟩ .f32) (b : FVec Ideal ⟨1, ![K]⟩ .f32) (p : Fin A) (k : Fin K) :
    biasRelu A K S b (ix2 p k) = max (S (ix2 p k) + b (ix1 k)) (Ideal.ofBits .f32 0x00000000#32) := rfl

/-- A block of rows times the weights, both narrowed to a 16-bit format first, accumulated into zeros: at (p, q) the
    sum over k of the block's (p, k) entry times the weights' (k, q) entry. -/
theorem narrowedProduct_apply (A K B : ℕ) (x0 : FVec Ideal ⟨2, ![A, K]⟩ .f32) (x1 : FVec Ideal ⟨2, ![K, B]⟩ .f32)
    (hw : FTy.bf16.bits < FTy.f32.bits) (p : Fin A) (q : Fin B) :
    FloatOps.matmul (DotDims.plain A K B) none (truncf .bf16 x0 hw) (truncf .bf16 x1 hw) (constant ⟨2, ![A, B]⟩ .f32 0x00000000#32) (ix2 p q)
      = ∑ k : Fin K, x0 (ix2 p k) * x1 (ix2 k q) := by
  rw [matmul_plain_zero_apply]
  rfl

/-- The same with the bias row added and the rectifier applied to the block first: at (p, q) the sum over k of
    max(block(p, k) + row(0, k), 0) times the weights' (k, q) entry. -/
theorem biasReluProduct_apply (A K B : ℕ) (x0 : FVec Ideal ⟨2, ![A, K]⟩ .f32) (x1 : FVec Ideal ⟨2, ![1, K]⟩ .f32) (x2 : FVec Ideal ⟨2, ![K, B]⟩ .f32)
    (h0 : (⟨2, ![A, K]⟩ : Shape).ShapeCasts ⟨2, ![A, K]⟩) (h1 : (⟨2, ![1, K]⟩ : Shape).ShapeCasts ⟨2, ![1, K]⟩)
    (hb : (⟨2, ![1, K]⟩ : Shape).Broadcasts ⟨2, ![A, K]⟩) (hw : FTy.bf16.bits < FTy.f32.bits) (p : Fin A) (q : Fin B) :
    FloatOps.matmul (DotDims.plain A K B) none
        (truncf .bf16 (maximumf (addf (shapeCast ⟨2, ![A, K]⟩ x0 h0) (broadcastTo ⟨2, ![A, K]⟩ (shapeCast ⟨2, ![1, K]⟩ x1 h1) hb))
          (broadcast ⟨2, ![A, K]⟩ (Scalar.ofBits (F := Ideal) .f32 0x00000000#32))) hw)
        (truncf .bf16 x2 hw) (constant ⟨2, ![A, B]⟩ .f32 0x00000000#32) (ix2 p q)
      = ∑ k : Fin K, max (x0 (ix2 p k) + x1 (ix2 (0 : Fin 1) k)) (Ideal.ofBits .f32 0x00000000#32) * x2 (ix2 k q) := by
  rw [matmul_plain_zero_apply]
  refine Finset.sum_congr rfl fun k _ => ?_
  rw [truncf_apply, truncf_apply, maximumf_apply, addf_apply, broadcast_apply, shapeCast_self, shapeCast_self,
    Cert.LibRowBroadcast.broadcastTo_1b_ab_apply x1 hb p k (0 : Fin 1)]
  rfl

/-- The host's plain matrix product [A, K] × [K, B] is `rowsTimes`, whatever the schedule key. -/
theorem hostProduct_eq (A K B : ℕ) (sched : HostSchedule) (X : FVec Ideal ⟨2, ![A, K]⟩ .f32) (W : FVec Ideal ⟨2, ![K, B]⟩ .f32) :
    FloatOps.dotGeneral (DotDims.plain A K B) none sched X W = rowsTimes A K B X W :=
  funext fun i => (congrArg (FloatOps.dotGeneral (DotDims.plain A K B) none sched X W) (eq_ix2 i)).trans
    (Cert.LibPlainDot.dotGeneral_plain_apply A K B none sched X W (i 0) (i 1))

end Cert.LibDenseLayer

end
-- ==== Proof.Region0.lean ====
/-
  The first kernel region: x · W₁, twenty row blocks of 5000 rows.

  At grid point t the region reads rows 5000·t … 5000·t + 4999 of x and the whole of W₁, and writes the same rows of its
  result: the block's product. Entry (p, q) of that block is Σ_k x(5000·t + p, k) · W₁(k, q), which is entry
  (5000·t + p, q) of the whole product x · W₁. Row r of the result lies in the block of point r / 5000, so the twenty
  blocks cover the result array, and after the region it holds x · W₁. All of this for ANY contents of the buffers
  at the region's entry.
-/
import proofs.«182120_j61770219651564_1_alg».proof.Proof.Gen.KernelIdeal.Frame
import proofs.«182120_j61770219651564_1_alg».proof.Proof.LibDenseLayer
import Idealize.ShloMosaic.Lib.Pipeline.Value

set_option maxRecDepth 16384

noncomputable section

namespace Cert.KernelIdeal.Region0

open Cert.KernelIdeal Cert.KernelIdeal.Gen Cert.LibDenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output block, at (p, q): Σ_k block(p, k) · W₁(k, q). -/
theorem out_apply (x0 : Vec Ideal S5000x128 .f32) (x1 : Vec Ideal S128x64 .f32) (p : Fin 5000) (q : Fin 64) :
    out0_2 x0 x1 (ix2 p q) = ∑ k : Fin 128, x0 (ix2 p k) * x1 (ix2 k q) := by
  unfold out0_2
  rw [View.canon_unit_zero hz]
  simp only [View.ld_unit_zero (S := S5000x128) hz, View.ld_unit_zero (S := S128x64) hz]
  unfold k0_pay1
  exact narrowedProduct_apply 5000 128 64 x0 x1 _ p q

/-- The block's entry at j is the whole product's entry at i, when the block's row j₀ is the array's row i₀ and the
    columns agree. -/
theorem block_eq (S : FVec Ideal S100000x128 .f32) (W : FVec Ideal S128x64 .f32) (x0 : Vec Ideal S5000x128 .f32) (x1 : Vec Ideal S128x64 .f32)
    (j : S5000x64.Idx) (i : S100000x64.Idx)
    (h0 : ∀ k : Fin 128, x0 (ix2 (j 0) k) = S (ix2 (i 0) k)) (h1 : ∀ k : Fin 128, x1 (ix2 k (j 1)) = W (ix2 k (i 1))) :
    out0_2 x0 x1 j = rowsTimes 100000 128 64 S W i := by
  refine (congrArg (out0_2 x0 x1) (eq_ix2 j)).trans ((out_apply x0 x1 (j 0) (j 1)).trans ?_)
  show _ = ∑ k : Fin 128, S (ix2 (i 0) k) * W (ix2 k (i 1))
  exact Finset.sum_congr rfl fun k _ => by rw [h0 k, h1 k]

/-- The index maps over the grid: the row-blocked windows sit at block row t, the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region found. -/
theorem flushed_eq (c : Dev nD) (t : Fin cfg0.N) :
    (dat0 V c).flushed 2 t = ((cfg0.win 2).blk t).view.read (Elt Ideal) (rowsTimes 100000 128 64 (V c main_arg0) (V c main_arg3)) := by
  show (cfg0.win 2).cut (grid0.coords t) ((dat0 V c).after 2 t) = _
  rw [after0_2]
  obtain ⟨e00, e01, e10, e11, eo0, eo1⟩ := idx_facts t
  funext j
  refine block_eq (V c main_arg0) (V c main_arg3) (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    congr 1
    funext a; apply Fin.ext
    match a with
    | ⟨0, _⟩ => show win0_0.index t (0 : Fin 2) * 5000 + 1 * (j 0).val = win0_2.index t (0 : Fin 2) * 5000 + 1 * (j 0).val; rw [e00, eo0]
    | ⟨1, _⟩ => show win0_0.index t (1 : Fin 2) * 128 + 1 * k.val = k.val; rw [e01]; omega
  · show V c main_arg3 (((cfg0.win 1).blk t).view.emb (ix2 k (j 1))) = V c main_arg3 (ix2 k ((((cfg0.win 2).blk t).view.emb j) 1))
    congr 1
    funext a; apply Fin.ext
    match a with
    | ⟨0, _⟩ => show win0_1.index t (0 : Fin 2) * 128 + 1 * k.val = k.val; rw [e10]; omega
    | ⟨1, _⟩ => show win0_1.index t (1 : Fin 2) * 64 + 1 * (j 1).val = win0_2.index t (1 : Fin 2) * 64 + 1 * (j 1).val; rw [e11, eo1]

/-- An index of the result array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row r of the result is in the block of point r / 5000: the blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, eo0, eo1⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [eo1]; omega

/-- After the region its result array holds the whole product of the two arrays it was entered with. -/
theorem array_eq (c : Dev nD) :
    (dat0 V c).arrAt 2 cfg0.N = rowsTimes 100000 128 64 (V c main_arg0) (V c main_arg3) :=
  (dat0 V c).arrAt_eq_of_cover 2 _ (fun t _ => flushed_eq V c t) cover

end Cert.KernelIdeal.Region0

end
-- ==== Proof.Region1.lean ====
/-
  The second kernel region: max(s + b, 0) · W₂, twenty row blocks of 5000 rows.

  At grid point t the region reads rows 5000·t … 5000·t + 4999 of the aggregated features s, the bias as a row [1, 64]
  and the whole of W₂; it adds the bias row to every row of the block, clamps below at zero, and multiplies by W₂.
  Entry (p, q) of what it writes is Σ_k max(s(5000·t + p, k) + b(k), 0) · W₂(k, q): entry (5000·t + p, q) of the
  whole-array product. Row r of the result lies in the block of point r / 5000, so the blocks cover the result array.
  All of this for ANY contents of the buffers at the region's entry, the bias row being a row whose column k holds b(k).
-/
import proofs.«182120_j61770219651564_1_alg».proof.Proof.Gen.KernelIdeal.Frame
import proofs.«182120_j61770219651564_1_alg».proof.Proof.LibDenseLayer
import Idealize.ShloMosaic.Lib.Pipeline.Value

set_option maxRecDepth 16384

noncomputable section

namespace Cert.KernelIdeal.Region1

open Cert.KernelIdeal Cert.KernelIdeal.Gen Cert.LibDenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output block, at (p, q): Σ_k max(block(p, k) + row(0, k), 0) · W₂(k, q). -/
theorem out_apply (x0 : Vec Ideal S5000x64 .f32) (x1 : Vec Ideal S1x64 .f32) (x2 : Vec Ideal S64x128 .f32) (p : Fin 5000) (q : Fin 128) :
    out1_3 x0 x1 x2 (ix2 p q)
      = ∑ k : Fin 64, max (x0 (ix2 p k) + x1 (ix2 (0 : Fin 1) k)) (Ideal.ofBits .f32 0x00000000#32) * x2 (ix2 k q) := by
  unfold out1_3
  rw [View.canon_unit_zero hz]
  simp only [View.ld_unit_zero (S := S5000x64) hz, View.ld_unit_zero (S := S1x64) hz, View.ld_unit_zero (S := S64x128) hz]
  unfold k1_pay1
  exact biasReluProduct_apply 5000 64 128 x0 x1 x2 _ _ _ _ p q

/-- The block's entry at j is the whole-array function's entry at i, when the block's row j₀ is the array's row i₀, the
    row buffer holds the bias, and the columns agree. -/
theorem block_eq (S : FVec Ideal S100000x64 .f32) (b : FVec Ideal S64 .f32) (W : FVec Ideal S64x128 .f32)
    (x0 : Vec Ideal S5000x64 .f32) (x1 : Vec Ideal S1x64 .f32) (x2 : Vec Ideal S64x128 .f32)
    (j : S5000x128.Idx) (i : S100000x128.Idx)
    (h0 : ∀ k : Fin 64, x0 (ix2 (j 0) k) = S (ix2 (i 0) k)) (hb : ∀ k : Fin 64, x1 (ix2 (0 : Fin 1) k) = b (ix1 k))
    (h1 : ∀ k : Fin 64, x2 (ix2 k (j 1)) = W (ix2 k (i 1))) :
    out1_3 x0 x1 x2 j = rowsTimes 100000 64 128 (biasRelu 100000 64 S b) W i := by
  refine (congrArg (out1_3 x0 x1 x2) (eq_ix2 j)).trans ((out_apply x0 x1 x2 (j 0) (j 1)).trans ?_)
  show _ = ∑ k : Fin 64, max (S (ix2 (i 0) k) + b (ix1 k)) (Ideal.ofBits .f32 0x00000000#32) * W (ix2 k (i 1))
  exact Finset.sum_congr rfl fun k _ => by rw [h0 k, hb k, h1 k]

/-- The index maps over the grid: the row-blocked windows sit at block row t, the bias row and the weights at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array function of the arrays the region found. -/
theorem flushed_eq (c : Dev nD) (b : FVec Ideal S64 .f32)
    (hb : ∀ k : Fin 64, (V c main_v43 : S1x64.Idx → Ideal .f32) (ix2 (0 : Fin 1) k) = b (ix1 k)) (t : Fin cfg1.N) :
    (dat1 V c).flushed 3 t
      = ((cfg1.win 3).blk t).view.read (Elt Ideal) (rowsTimes 100000 64 128 (biasRelu 100000 64 (V c main_v42) b) (V c main_arg5)) := by
  show (cfg1.win 3).cut (grid1.coords t) ((dat1 V c).after 3 t) = _
  rw [after1_3]
  obtain ⟨e00, e01, e10, e11, e20, e21, eo0, eo1⟩ := idx_facts t
  funext j
  refine block_eq (V c main_v42) b (V c main_arg5) (iblk1 V c 0 t) (iblk1 V c 1 t) (iblk1 V c 2 t) j (((cfg1.win 3).blk t).view.emb j)
    (fun k => ?_) (fun k => ?_) (fun k => ?_)
  · show V c main_v42 (((cfg1.win 0).blk t).view.emb (ix2 (j 0) k)) = V c main_v42 (ix2 ((((cfg1.win 3).blk t).view.emb j) 0) k)
    congr 1
    funext a; apply Fin.ext
    match a with
    | ⟨0, _⟩ => show win1_0.index t (0 : Fin 2) * 5000 + 1 * (j 0).val = win1_3.index t (0 : Fin 2) * 5000 + 1 * (j 0).val; rw [e00, eo0]
    | ⟨1, _⟩ => show win1_0.index t (1 : Fin 2) * 64 + 1 * k.val = k.val; rw [e01]; omega
  · refine Eq.trans ?_ (hb k)
    show V c main_v43 (((cfg1.win 1).blk t).view.emb (ix2 (0 : Fin 1) k)) = V c main_v43 (ix2 (0 : Fin 1) k)
    congr 1
    funext a; apply Fin.ext
    match a with
    | ⟨0, _⟩ => show win1_1.index t (0 : Fin 2) * 1 + 1 * 0 = 0; rw [e10]
    | ⟨1, _⟩ => show win1_1.index t (1 : Fin 2) * 64 + 1 * k.val = k.val; rw [e11]; omega
  · show V c main_arg5 (((cfg1.win 2).blk t).view.emb (ix2 k (j 1))) = V c main_arg5 (ix2 k ((((cfg1.win 3).blk t).view.emb j) 1))
    congr 1
    funext a; apply Fin.ext
    match a with
    | ⟨0, _⟩ => show win1_2.index t (0 : Fin 2) * 64 + 1 * k.val = k.val; rw [e20]; omega
    | ⟨1, _⟩ => show win1_2.index t (1 : Fin 2) * 128 + 1 * (j 1).val = win1_3.index t (1 : Fin 2) * 128 + 1 * (j 1).val; rw [e21, eo1]

/-- An index of the result array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v44).slice (win1_3.rect t)).set ↔ _
  rw [View.set_slice_whole, Rect.mem_set_unit]
  exact Iff.rfl

/-- Row r of the result is in the block of point r / 5000: the blocks cover the array. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, eo0, eo1⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [eo1]; omega

/-- After the region its result array holds max(s + b, 0) · W₂ of the arrays it was entered with. -/
theorem array_eq (c : Dev nD) (b : FVec Ideal S64 .f32)
    (hb : ∀ k : Fin 64, (V c main_v43 : S1x64.Idx → Ideal .f32) (ix2 (0 : Fin 1) k) = b (ix1 k)) :
    (dat1 V c).arrAt 3 cfg1.N = rowsTimes 100000 64 128 (biasRelu 100000 64 (V c main_v42) b) (V c main_arg5) :=
  (dat1 V c).arrAt_eq_of_cover 3 _ (fun t _ => flushed_eq V c b hb t) cover

end Cert.KernelIdeal.Region1

end
-- ==== Proof.Region2.lean ====
/-
  The third kernel region: max(s + b, 0) · W₃, twenty row blocks of 5000 rows.

  At grid point t the region reads rows 5000·t … 5000·t + 4999 of the aggregated features s, the bias as a row [1, 128]
  and the whole of W₃; it adds the bias row to every row of the block, clamps below at zero, and multiplies by W₃.
  Entry (p, q) of what it writes is Σ_k max(s(5000·t + p, k) + b(k), 0) · W₃(k, q): entry (5000·t + p, q) of the
  whole-array product. Row r of the result lies in the block of point r / 5000, so the blocks cover the result array.
  All of this for ANY contents of the buffers at the region's entry, the bias row being a row whose column k holds b(k).
-/
import proofs.«182120_j61770219651564_1_alg».proof.Proof.Gen.KernelIdeal.Frame
import proofs.«182120_j61770219651564_1_alg».proof.Proof.LibDenseLayer
import Idealize.ShloMosaic.Lib.Pipeline.Value

set_option maxRecDepth 16384

noncomputable section

namespace Cert.KernelIdeal.Region2

open Cert.KernelIdeal Cert.KernelIdeal.Gen Cert.LibDenseLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output block, at (p, q): Σ_k max(block(p, k) + row(0, k), 0) · W₃(k, q). -/
theorem out_apply (x0 : Vec Ideal S5000x128 .f32) (x1 : Vec Ideal S1x128 .f32) (x2 : Vec Ideal S128x128 .f32) (p : Fin 5000) (q : Fin 128) :
    out2_3 x0 x1 x2 (ix2 p q)
      = ∑ k : Fin 128, max (x0 (ix2 p k) + x1 (ix2 (0 : Fin 1) k)) (Ideal.ofBits .f32 0x00000000#32) * x2 (ix2 k q) := by
  unfold out2_3
  rw [View.canon_unit_zero hz]
  simp only [View.ld_unit_zero (S := S5000x128) hz, View.ld_unit_zero (S := S1x128) hz, View.ld_unit_zero (S := S128x128) hz]
  unfold k2_pay1
  exact biasReluProduct_apply 5000 128 128 x0 x1 x2 _ _ _ _ p q

/-- The block's entry at j is the whole-array function's entry at i, when the block's row j₀ is the array's row i₀, the
    row buffer holds the bias, and the columns agree. -/
theorem block_eq (S : FVec Ideal S100000x128 .f32) (b : FVec Ideal S128 .f32) (W : FVec Ideal S128x128 .f32)
    (x0 : Vec Ideal S5000x128 .f32) (x1 : Vec Ideal S1x128 .f32) (x2 : Vec Ideal S128x128 .f32)
    (j : S5000x128.Idx) (i : S100000x128.Idx)
    (h0 : ∀ k : Fin 128, x0 (ix2 (j 0) k) = S (ix2 (i 0) k)) (hb : ∀ k : Fin 128, x1 (ix2 (0 : Fin 1) k) = b (ix1 k))
    (h1 : ∀ k : Fin 128, x2 (ix2 k (j 1)) = W (ix2 k (i 1))) :
    out2_3 x0 x1 x2 j = rowsTimes 100000 128 128 (biasRelu 100000 128 S b) W i := by
  refine (congrArg (out2_3 x0 x1 x2) (eq_ix2 j)).trans ((out_apply x0 x1 x2 (j 0) (j 1)).trans ?_)
  show _ = ∑ k : Fin 128, max (S (ix2 (i 0) k) + b (ix1 k)) (Ideal.ofBits .f32 0x00000000#32) * W (ix2 k (i 1))
  exact Finset.sum_congr rfl fun k _ => by rw [h0 k, hb k, h1 k]

/-- The index maps over the grid: the row-blocked windows sit at block row t, the bias row and the weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole-array function of the arrays the region found. -/
theorem flushed_eq (c : Dev nD) (b : FVec Ideal S128 .f32)
    (hb : ∀ k : Fin 128, (V c main_v57 : S1x128.Idx → Ideal .f32) (ix2 (0 : Fin 1) k) = b (ix1 k)) (t : Fin cfg2.N) :
    (dat2 V c).flushed 3 t
      = ((cfg2.win 3).blk t).view.read (Elt Ideal) (rowsTimes 100000 128 128 (biasRelu 100000 128 (V c main_v56) b) (V c main_arg7)) := by
  show (cfg2.win 3).cut (grid2.coords t) ((dat2 V c).after 3 t) = _
  rw [after2_3]
  obtain ⟨e00, e01, e10, e11, e20, e21, eo0, eo1⟩ := idx_facts t
  funext j
  refine block_eq (V c main_v56) b (V c main_arg7) (iblk2 V c 0 t) (iblk2 V c 1 t) (iblk2 V c 2 t) j (((cfg2.win 3).blk t).view.emb j)
    (fun k => ?_) (fun k => ?_) (fun k => ?_)
  · show V c main_v56 (((cfg2.win 0).blk t).view.emb (ix2 (j 0) k)) = V c main_v56 (ix2 ((((cfg2.win 3).blk t).view.emb j) 0) k)
    congr 1
    funext a; apply Fin.ext
    match a with
    | ⟨0, _⟩ => show win2_0.index t (0 : Fin 2) * 5000 + 1 * (j 0).val = win2_3.index t (0 : Fin 2) * 5000 + 1 * (j 0).val; rw [e00, eo0]
    | ⟨1, _⟩ => show win2_0.index t (1 : Fin 2) * 128 + 1 * k.val = k.val; rw [e01]; omega
  · refine Eq.trans ?_ (hb k)
    show V c main_v57 (((cfg2.win 1).blk t).view.emb (ix2 (0 : Fin 1) k)) = V c main_v57 (ix2 (0 : Fin 1) k)
    congr 1
    funext a; apply Fin.ext
    match a with
    | ⟨0, _⟩ => show win2_1.index t (0 : Fin 2) * 1 + 1 * 0 = 0; rw [e10]
    | ⟨1, _⟩ => show win2_1.index t (1 : Fin 2) * 128 + 1 * k.val = k.val; rw [e11]; omega
  · show V c main_arg7 (((cfg2.win 2).blk t).view.emb (ix2 k (j 1))) = V c main_arg7 (ix2 k ((((cfg2.win 3).blk t).view.emb j) 1))
    congr 1
    funext a; apply Fin.ext
    match a with
    | ⟨0, _⟩ => show win2_2.index t (0 : Fin 2) * 128 + 1 * k.val = k.val; rw [e20]; omega
    | ⟨1, _⟩ => show win2_2.index t (1 : Fin 2) * 128 + 1 * (j 1).val = win2_3.index t (1 : Fin 2) * 128 + 1 * (j 1).val; rw [e21, eo1]

/-- An index of the result array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v58).slice (win2_3.rect t)).set ↔ _
  rw [View.set_slice_whole, Rect.mem_set_unit]
  exact Iff.rfl

/-- Row r of the result is in the block of point r / 5000: the blocks cover the array. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, eo0, eo1⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [eo1]; omega

/-- After the region its result array holds max(s + b, 0) · W₃ of the arrays it was entered with. -/
theorem array_eq (c : Dev nD) (b : FVec Ideal S128 .f32)
    (hb : ∀ k : Fin 128, (V c main_v57 : S1x128.Idx → Ideal .f32) (ix2 (0 : Fin 1) k) = b (ix1 k)) :
    (dat2 V c).arrAt 3 cfg2.N = rowsTimes 100000 128 128 (biasRelu 100000 128 (V c main_v56) b) (V c main_arg7) :=
  (dat2 V c).arrAt_eq_of_cover 3 _ (fun t _ => flushed_eq V c b hb t) cover

end Cert.KernelIdeal.Region2

end
-- ==== Proof.RefStages.lean ====
/-
  The reference's three dense layers as the whole-array functions of the specification.

  The reference multiplies by each weight matrix with one host matrix product. Read at an index a host matrix product
  is the plain sum over the contracted axis, so x · W₁ is `rowsTimes`; and before the second and third products the
  reference adds the bias — a vector spread first to a row [1, K], then over all rows — and clamps below at zero, which
  index by index is `biasRelu` of the aggregated features and the bias vector.
-/
import proofs.«182120_j61770219651564_1_alg».proof.Proof.Gen.ReferenceIdeal.Read
import proofs.«182120_j61770219651564_1_alg».proof.Proof.LibDenseLayer

noncomputable section

namespace Cert.ReferenceIdeal.Layers

open Cert.ReferenceIdeal Cert.ReferenceIdeal.Read Cert.LibDenseLayer
open Idealize.ShloMosaic Idealize.ShloMosaic.ValueIdx

variable (x0 : (⟨S100000x128, .f32⟩ : BufTy).Contents (Elt Ideal)) (x1 : (⟨S2x1600000, .i32⟩ : BufTy).Contents (Elt Ideal))
  (x3 : (⟨S128x64, .f32⟩ : BufTy).Contents (Elt Ideal)) (x4 : (⟨S64, .f32⟩ : BufTy).Contents (Elt Ideal))
  (x5 : (⟨S64x128, .f32⟩ : BufTy).Contents (Elt Ideal)) (x6 : (⟨S128, .f32⟩ : BufTy).Contents (Elt Ideal))
  (x7 : (⟨S128x128, .f32⟩ : BufTy).Contents (Elt Ideal))

/-- The first layer's transform is x · W₁. -/
theorem layer1 : val_main_v30 (F := Ideal) x0 x3 = rowsTimes 100000 128 64 x0 x3 := by
  unfold val_main_v30
  exact hostProduct_eq 100000 128 64 _ x0 x3

/-- Bias and rectifier after the first aggregation. -/
theorem act1 : val_main_v46 (F := Ideal) x0 x1 x3 x4 = biasRelu 100000 64 (val_main_v42 (F := Ideal) x0 x1 x3) x4 := by
  funext j
  rw [val_main_v46_apply, val_main_v45_apply, val_main_v44_apply, val_main_v43_apply, val_main_call0_v0_apply, val_main_call0_cst_apply]
  have e : idx_main_v43 (idx_main_v44 j) = ix1 (j 1) := funext fun a => Fin.ext (by match a with | ⟨0, _⟩ => rfl)
  rw [e]
  rfl

/-- The second layer's transform is max(s₁ + b₁, 0) · W₂. -/
theorem layer2 : val_main_v47 (F := Ideal) x0 x1 x3 x4 x5
    = rowsTimes 100000 64 128 (biasRelu 100000 64 (val_main_v42 (F := Ideal) x0 x1 x3) x4) x5 := by
  unfold val_main_v47
  rw [act1]
  exact hostProduct_eq 100000 64 128 _ _ x5

/-- Bias and rectifier after the second aggregation. -/
theorem act2 : val_main_v63 (F := Ideal) x0 x1 x3 x4 x5 x6 = biasRelu 100000 128 (val_main_v59 (F := Ideal) x0 x1 x3 x4 x5) x6 := by
  funext j
  rw [val_main_v63_apply, val_main_v62_apply, val_main_v61_apply, val_main_v60_apply, val_main_call1_v0_apply, val_main_call1_cst_apply]
  have e : idx_main_v60 (idx_main_v61 j) = ix1 (j 1) := funext fun a => Fin.ext (by match a with | ⟨0, _⟩ => rfl)
  rw [e]
  rfl

/-- The third layer's transform is max(s₂ + b₂, 0) · W₃. -/
theorem layer3 : val_main_v64 (F := Ideal) x0 x1 x3 x4 x5 x6 x7
    = rowsTimes 100000 128 128 (biasRelu 100000 128 (val_main_v59 (F := Ideal) x0 x1 x3 x4 x5) x6) x7 := by
  unfold val_main_v64
  rw [act2]
  exact hostProduct_eq 100000 128 128 _ _ x7

end Cert.ReferenceIdeal.Layers

end
-- ==== Proof.Boundaries.lean ====
/-
  The idealized kernel program's result, boundary by boundary, in the reference's own words.

  The program alternates stretches of host operations with three kernel regions. What each buffer holds at each
  boundary is computed here from the launch memory, and named by the reference's stage for the same quantity:
  • the first stretch computes, from the edge list alone, the source and destination node of every edge (self loops
    appended) and the symmetric normalisation weight of every edge — the same operations, in the same order, as the
    reference's first lines;
  • a region leaves its output array at the layer's dense transform of the arrays it read (x · W₁; max(s + b, 0) · W),
    which is the reference's matrix product of the same arrays, and leaves every other buffer alone;
  • the stretch after a region gathers the transformed rows at the edges' sources, scales them by the edge weights and
    adds them up at the edges' destinations — again the reference's operations in the reference's order — and reshapes
    the next bias to a row;
  • the last stretch adds the last bias and averages the rows of each graph.
  Buffers computed early and used late (the edges' endpoints and weights, the later layers' parameters) are carried
  across the segments that do not write them. Chaining the boundaries gives: the result buffer ends at the
  reference's result term of the same arguments.
-/
import proofs.«182120_j61770219651564_1_alg».proof.Proof.Gen.KernelIdeal.Frame
import proofs.«182120_j61770219651564_1_alg».proof.Proof.Gen.ReferenceIdeal.Read
import proofs.«182120_j61770219651564_1_alg».proof.Proof.Region0
import proofs.«182120_j61770219651564_1_alg».proof.Proof.Region1
import proofs.«182120_j61770219651564_1_alg».proof.Proof.Region2
import proofs.«182120_j61770219651564_1_alg».proof.Proof.RefStages
import Idealize.ShloMosaic.Lib.StableHlo.Run
import Idealize.ShloMosaic.Lib.Pipeline.Value

set_option maxRecDepth 16384

noncomputable section

namespace Cert.KernelIdeal.Boundaries

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A buffer none of a stretch's operations writes keeps its contents. -/
macro "host_keeps " ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes, Finset.mem_singleton]
   repeat' apply And.intro
   all_goals exact StableHlo.devRef_ne_of_ne (by decide)))

/-! ## What each stretch of host operations leaves alone -/
theorem host0_arg0 (W : Valuation τ sig (Elt Ideal)) :
    StableHlo.after hostOps0 W (Proc.devRef .tc main_arg0) = W (Proc.devRef .tc main_arg0) := by host_keeps hostOps0
theorem host0_arg2 (W : Valuation τ sig (Elt Ideal)) :
    StableHlo.after hostOps0 W (Proc.devRef .tc main_arg2) = W (Proc.devRef .tc main_arg2) := by host_keeps hostOps0
theorem host0_arg3 (W : Valuation τ sig (Elt Ideal)) :
    StableHlo.after hostOps0 W (Proc.devRef .tc main_arg3) = W (Proc.devRef .tc main_arg3) := by host_keeps hostOps0
theorem host0_arg4 (W : Valuation τ sig (Elt Ideal)) :
    StableHlo.after hostOps0 W (Proc.devRef .tc main_arg4) = W (Proc.devRef .tc main_arg4) := by host_keeps hostOps0
theorem host0_arg5 (W : Valuation τ sig (Elt Ideal)) :
    StableHlo.after hostOps0 W (Proc.devRef .tc main_arg5) = W (Proc.devRef .tc main_arg5) := by host_keeps hostOps0
theorem host0_arg6 (W : Valuation τ sig (Elt Ideal)) :
    StableHlo.after hostOps0 W (Proc.devRef .tc main_arg6) = W (Proc.devRef .tc main_arg6) := by host_keeps hostOps0
theorem host0_arg7 (W : Valuation τ sig (Elt Ideal)) :
    StableHlo.after hostOps0 W (Proc.devRef .tc main_arg7) = W (Proc.devRef .tc main_arg7) := by host_keeps hostOps0
theorem host0_arg8 (W : Valuation τ sig (Elt Ideal)) :
    StableHlo.after hostOps0 W (Proc.devRef .tc main_arg8) = W (Proc.devRef .tc main_arg8) := by host_keeps hostOps0
theorem host1_v5 (W : Valuation τ sig (Elt Ideal)) :
    StableHlo.after hostOps1 W (Proc.devRef .tc main_v5) = W (Proc.devRef .tc main_v5) := by host_keeps hostOps1
theorem host1_v6 (W : Valuation τ sig (Elt Ideal)) :
    StableHlo.after hostOps1 W (Proc.devRef .tc main_v6) = W (Proc.devRef .tc main_v6) := by host_keeps hostOps1
theorem host1_v29 (W : Valuation τ sig (Elt Ideal)) :
    StableHlo.after hostOps1 W (Proc.devRef .tc main_v29) = W (Proc.devRef .tc main_v29) := by host_keeps hostOps1
theorem host1_arg2 (W : Valuation τ sig (Elt Ideal)) :
    StableHlo.after hostOps1 W (Proc.devRef .tc main_arg2) = W (Proc.devRef .tc main_arg2) := by host_keeps hostOps1
theorem host1_arg5 (W : Valuation τ sig (Elt Ideal)) :
    StableHlo.after hostOps1 W (Proc.devRef .tc main_arg5) = W (Proc.devRef .tc main_arg5) := by host_keeps hostOps1
theorem host1_arg6 (W : Valuation τ sig (Elt Ideal)) :
    StableHlo.after hostOps1 W (Proc.devRef .tc main_arg6) = W (Proc.devRef .tc main_arg6) := by host_keeps hostOps1
theorem host1_arg7 (W : Valuation τ sig (Elt Ideal)) :
    StableHlo.after hostOps1 W (Proc.devRef .tc main_arg7) = W (Proc.devRef .tc main_arg7) := by host_keeps hostOps1
theorem host1_arg8 (W : Valuation τ sig (Elt Ideal)) :
    StableHlo.after hostOps1 W (Proc.devRef .tc main_arg8) = W (Proc.devRef .tc main_arg8) := by host_keeps hostOps1
theorem host2_v5 (W : Valuation τ sig (Elt Ideal)) :
    StableHlo.after hostOps2 W (Proc.devRef .tc main_v5) = W (Proc.devRef .tc main_v5) := by host_keeps hostOps2
theorem host2_v6 (W : Valuation τ sig (Elt Ideal)) :
    StableHlo.after hostOps2 W (Proc.devRef .tc main_v6) = W (Proc.devRef .tc main_v6) := by host_keeps hostOps2
theorem host2_v29 (W : Valuation τ sig (Elt Ideal)) :
    StableHlo.after hostOps2 W (Proc.devRef .tc main_v29) = W (Proc.devRef .tc main_v29) := by host_keeps hostOps2
theorem host2_arg2 (W : Valuation τ sig (Elt Ideal)) :
    StableHlo.after hostOps2 W (Proc.devRef .tc main_arg2) = W (Proc.devRef .tc main_arg2) := by host_keeps hostOps2
theorem host2_arg7 (W : Valuation τ sig (Elt Ideal)) :
    StableHlo.after hostOps2 W (Proc.devRef .tc main_arg7) = W (Proc.devRef .tc main_arg7) := by host_keeps hostOps2
theorem host2_arg8 (W : Valuation τ sig (Elt Ideal)) :
    StableHlo.after hostOps2 W (Proc.devRef .tc main_arg8) = W (Proc.devRef .tc main_arg8) := by host_keeps hostOps2

/-! ## After the first stretch: the edges' endpoints and weights, and the parameters as launched -/

set_option maxHeartbeats 4000000 in
/-- The source node of every edge, self loops appended. -/
theorem at1_v5 : W1 m ρ c (Proc.devRef .tc main_v5) = Cert.ReferenceIdeal.Read.val_main_v5 (F := Ideal) (m ((c.tc : Thread nD τ).loc main_arg1)) := by
  show StableHlo.after hostOps0 (W0 m ρ c) (Proc.devRef .tc main_v5) = _
  after_results_simp
  rfl

set_option maxHeartbeats 4000000 in
/-- The destination node of every edge, self loops appended. -/
theorem at1_v6 : W1 m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  after_results_simp
  rfl

set_option maxHeartbeats 4000000 in
/-- The weight of every edge: the product of the inverse square roots of its endpoints' clamped degrees, as a column. -/
theorem at1_v29 : W1 m ρ c (Proc.devRef .tc main_v29) = Cert.ReferenceIdeal.Read.val_main_v29 (F := Ideal) (m ((c.tc : Thread nD τ).loc main_arg1)) := by
  show StableHlo.after hostOps0 (W0 m ρ c) (Proc.devRef .tc main_v29) = _
  after_results_simp
  rfl

theorem at1_arg0 : W1 m ρ c (Proc.devRef .tc main_arg0) = m ((c.tc : Thread nD τ).loc main_arg0) := host0_arg0 (W0 m ρ c)
theorem at1_arg2 : W1 m ρ c (Proc.devRef .tc main_arg2) = m ((c.tc : Thread nD τ).loc main_arg2) := host0_arg2 (W0 m ρ c)
theorem at1_arg3 : W1 m ρ c (Proc.devRef .tc main_arg3) = m ((c.tc : Thread nD τ).loc main_arg3) := host0_arg3 (W0 m ρ c)
theorem at1_arg4 : W1 m ρ c (Proc.devRef .tc main_arg4) = m ((c.tc : Thread nD τ).loc main_arg4) := host0_arg4 (W0 m ρ c)
theorem at1_arg5 : W1 m ρ c (Proc.devRef .tc main_arg5) = m ((c.tc : Thread nD τ).loc main_arg5) := host0_arg5 (W0 m ρ c)
theorem at1_arg6 : W1 m ρ c (Proc.devRef .tc main_arg6) = m ((c.tc : Thread nD τ).loc main_arg6) := host0_arg6 (W0 m ρ c)
theorem at1_arg7 : W1 m ρ c (Proc.devRef .tc main_arg7) = m ((c.tc : Thread nD τ).loc main_arg7) := host0_arg7 (W0 m ρ c)
theorem at1_arg8 : W1 m ρ c (Proc.devRef .tc main_arg8) = m ((c.tc : Thread nD τ).loc main_arg8) := host0_arg8 (W0 m ρ c)

/-! ## After the first region -/

theorem at2_v5 : W2 m ρ c (Proc.devRef .tc main_v5) = Cert.ReferenceIdeal.Read.val_main_v5 (F := Ideal) (m ((c.tc : Thread nD τ).loc main_arg1)) := (W2_of_ne m ρ c main_v5 (by decide)).trans (at1_v5 m ρ c)
theorem at2_v6 : W2 m ρ c (Proc.devRef .tc main_v6) = Cert.ReferenceIdeal.Read.val_main_v6 (F := Ideal) (m ((c.tc : Thread nD τ).loc main_arg1)) := (W2_of_ne m ρ c main_v6 (by decide)).trans (at1_v6 m ρ c)
theorem at2_v29 : W2 m ρ c (Proc.devRef .tc main_v29) = Cert.ReferenceIdeal.Read.val_main_v29 (F := Ideal) (m ((c.tc : Thread nD τ).loc main_arg1)) := (W2_of_ne m ρ c main_v29 (by decide)).trans (at1_v29 m ρ c)
theorem at2_arg2 : W2 m ρ c (Proc.devRef .tc main_arg2) = m ((c.tc : Thread nD τ).loc main_arg2) := (W2_of_ne m ρ c main_arg2 (by decide)).trans (at1_arg2 m ρ c)
theorem at2_arg4 : W2 m ρ c (Proc.devRef .tc main_arg4) = m ((c.tc : Thread nD τ).loc main_arg4) := (W2_of_ne m ρ c main_arg4 (by decide)).trans (at1_arg4 m ρ c)
theorem at2_arg5 : W2 m ρ c (Proc.devRef .tc main_arg5) = m ((c.tc : Thread nD τ).loc main_arg5) := (W2_of_ne m ρ c main_arg5 (by decide)).trans (at1_arg5 m ρ c)
theorem at2_arg6 : W2 m ρ c (Proc.devRef .tc main_arg6) = m ((c.tc : Thread nD τ).loc main_arg6) := (W2_of_ne m ρ c main_arg6 (by decide)).trans (at1_arg6 m ρ c)
theorem at2_arg7 : W2 m ρ c (Proc.devRef .tc main_arg7) = m ((c.tc : Thread nD τ).loc main_arg7) := (W2_of_ne m ρ c main_arg7 (by decide)).trans (at1_arg7 m ρ c)
theorem at2_arg8 : W2 m ρ c (Proc.devRef .tc main_arg8) = m ((c.tc : Thread nD τ).loc main_arg8) := (W2_of_ne m ρ c main_arg8 (by decide)).trans (at1_arg8 m ρ c)

/-- The first region's result array holds x · W₁: the reference's first matrix product. -/
theorem at2_v30 : W2 m ρ c (Proc.devRef .tc main_v30) = Cert.ReferenceIdeal.Read.val_main_v30 (F := Ideal) (m ((c.tc : Thread nD τ).loc main_arg0)) (m ((c.tc : Thread nD τ).loc main_arg3)) := by
  refine (W2_arr m ρ c 2).trans ((Region0.array_eq (V1 m ρ) c).trans ?_)
  show Cert.LibDenseLayer.rowsTimes 100000 128 64 (W1 m ρ c (Proc.devRef .tc main_arg0)) (W1 m ρ c (Proc.devRef .tc main_arg3)) = _
  rw [at1_arg0, at1_arg3]
  exact (Cert.ReferenceIdeal.Layers.layer1 _ _).symm

/-! ## After the second stretch -/

theorem at3_v5 : W3 m ρ c (Proc.devRef .tc main_v5) = Cert.ReferenceIdeal.Read.val_main_v5 (F := Ideal) (m ((c.tc : Thread nD τ).loc main_arg1)) := (host1_v5 (W2 m ρ c)).trans (at2_v5 m ρ c)
theorem at3_v6 : W3 m ρ c (Proc.devRef .tc main_v6) = Cert.ReferenceIdeal.Read.val_main_v6 (F := Ideal) (m ((c.tc : Thread nD τ).loc main_arg1)) := (host1_v6 (W2 m ρ c)).trans (at2_v6 m ρ c)
theorem at3_v29 : W3 m ρ c (Proc.devRef .tc main_v29) = Cert.ReferenceIdeal.Read.val_main_v29 (F := Ideal) (m ((c.tc : Thread nD τ).loc main_arg1)) := (host1_v29 (W2 m ρ c)).trans (at2_v29 m ρ c)
theorem at3_arg2 : W3 m ρ c (Proc.devRef .tc main_arg2) = m ((c.tc : Thread nD τ).loc main_arg2) := (host1_arg2 (W2 m ρ c)).trans (at2_arg2 m ρ c)
theorem at3_arg5 : W3 m ρ c (Proc.devRef .tc main_arg5) = m ((c.tc : Thread nD τ).loc main_arg5) := (host1_arg5 (W2 m ρ c)).trans (at2_arg5 m ρ c)
theorem at3_arg6 : W3 m ρ c (Proc.devRef .tc main_arg6) = m ((c.tc : Thread nD τ).loc main_arg6) := (host1_arg6 (W2 m ρ c)).trans (at2_arg6 m ρ c)
theorem at3_arg7 : W3 m ρ c (Proc.devRef .tc main_arg7) = m ((c.tc : Thread nD τ).loc main_arg7) := (host1_arg7 (W2 m ρ c)).trans (at2_arg7 m ρ c)
theorem at3_arg8 : W3 m ρ c (Proc.devRef .tc main_arg8) = m ((c.tc : Thread nD τ).loc main_arg8) := (host1_arg8 (W2 m ρ c)).trans (at2_arg8 m ρ c)

/-- A vector reshaped to a row [1, b] holds entry e at (0, e): both sit at row-major position e. -/
theorem rowOfVector_apply {b : ℕ} {α : Type} (y : (⟨1, ![b]⟩ : Shape).Idx → α) (h : (⟨1, ![b]⟩ : Shape).ShapeCasts ⟨2, ![1, b]⟩)
    (e : Fin b) : shapeCast ⟨2, ![1, b]⟩ y h (ix2 (0 : Fin 1) e) = y (ix1 e) :=
  shapeCast_apply y h (ix2 (0 : Fin 1) e) (ix1 e) (by
    rw [Shape.rowMajor_val_one, Shape.rowMajor_val_two]
    show e.val = 0 * b + e.val
    rw [Nat.zero_mul, Nat.zero_add])

set_option maxHeartbeats 4000000 in
/-- The first aggregation: rows of x · W₁ gathered at the edges' sources, scaled by the edge weights, added up at the
    edges' destinations. -/
theorem at3_v42 : W3 m ρ c (Proc.devRef .tc main_v42) = Cert.ReferenceIdeal.Read.val_main_v42 (F := Ideal) (m ((c.tc : Thread nD τ).loc main_arg0)) (m ((c.tc : Thread nD τ).loc main_arg1)) (m ((c.tc : Thread nD τ).loc main_arg3)) := by
  show StableHlo.after hostOps1 (W2 m ρ c) (Proc.devRef .tc main_v42) = _
  after_results_simp
  rw [at2_v30, at2_v5, at2_v6, at2_v29]
  rfl

/-- The first bias as a row: column k holds b₁(k). -/
theorem at3_v43 (k : Fin 64) : (W3 m ρ c (Proc.devRef .tc main_v43) : S1x64.Idx → Ideal .f32) (ix2 (0 : Fin 1) k)
    = (m ((c.tc : Thread nD τ).loc main_arg4) : S64.Idx → Ideal .f32) (ix1 k) := by
  have e : (W3 m ρ c (Proc.devRef .tc main_v43) : S1x64.Idx → Ideal .f32)
      = shapeCast S1x64 (W2 m ρ c (Proc.devRef .tc main_arg4) : S64.Idx → Ideal .f32) shapeCasts_S64_S1x64 := by
    show StableHlo.after hostOps1 (W2 m ρ c) (Proc.devRef .tc main_v43) = _
    after_results_simp
    rfl
  rw [e, at2_arg4]
  exact rowOfVector_apply _ _ k

/-! ## After the second region -/

theorem at4_v5 : W4 m ρ c (Proc.devRef .tc main_v5) = Cert.ReferenceIdeal.Read.val_main_v5 (F := Ideal) (m ((c.tc : Thread nD τ).loc main_arg1)) := (W4_of_ne m ρ c main_v5 (by decide)).trans (at3_v5 m ρ c)
theorem at4_v6 : W4 m ρ c (Proc.devRef .tc main_v6) = Cert.ReferenceIdeal.Read.val_main_v6 (F := Ideal) (m ((c.tc : Thread nD τ).loc main_arg1)) := (W4_of_ne m ρ c main_v6 (by decide)).trans (at3_v6 m ρ c)
theorem at4_v29 : W4 m ρ c (Proc.devRef .tc main_v29) = Cert.ReferenceIdeal.Read.val_main_v29 (F := Ideal) (m ((c.tc : Thread nD τ).loc main_arg1)) := (W4_of_ne m ρ c main_v29 (by decide)).trans (at3_v29 m ρ c)
theorem at4_arg2 : W4 m ρ c (Proc.devRef .tc main_arg2) = m ((c.tc : Thread nD τ).loc main_arg2) := (W4_of_ne m ρ c main_arg2 (by decide)).trans (at3_arg2 m ρ c)
theorem at4_arg6 : W4 m ρ c (Proc.devRef .tc main_arg6) = m ((c.tc : Thread nD τ).loc main_arg6) := (W4_of_ne m ρ c main_arg6 (by decide)).trans (at3_arg6 m ρ c)
theorem at4_arg7 : W4 m ρ c (Proc.devRef .tc main_arg7) = m ((c.tc : Thread nD τ).loc main_arg7) := (W4_of_ne m ρ c main_arg7 (by decide)).trans (at3_arg7 m ρ c)
theorem at4_arg8 : W4 m ρ c (Proc.devRef .tc main_arg8) = m ((c.tc : Thread nD τ).loc main_arg8) := (W4_of_ne m ρ c main_arg8 (by decide)).trans (at3_arg8 m ρ c)

/-- The second region's result array holds max(s₁ + b₁, 0) · W₂: the reference's second matrix product. -/
theorem at4_v44 : W4 m ρ c (Proc.devRef .tc main_v44)
    = Cert.ReferenceIdeal.Read.val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W4_arr m ρ c 3).trans ((Region1.array_eq (V3 m ρ) c (m ((c.tc : Thread nD τ).loc main_arg4)) (fun k => at3_v43 m ρ c k)).trans ?_)
  show Cert.LibDenseLayer.rowsTimes 100000 64 128 (Cert.LibDenseLayer.biasRelu 100000 64 (W3 m ρ c (Proc.devRef .tc main_v42)) (m ((c.tc : Thread nD τ).loc main_arg4)))
    (W3 m ρ c (Proc.devRef .tc main_arg5)) = _
  rw [at3_v42, at3_arg5]
  exact (Cert.ReferenceIdeal.Layers.layer2 _ _ _ _ _).symm

/-! ## After the third stretch -/

theorem at5_v5 : W5 m ρ c (Proc.devRef .tc main_v5) = Cert.ReferenceIdeal.Read.val_main_v5 (F := Ideal) (m ((c.tc : Thread nD τ).loc main_arg1)) := (host2_v5 (W4 m ρ c)).trans (at4_v5 m ρ c)
theorem at5_v6 : W5 m ρ c (Proc.devRef .tc main_v6) = Cert.ReferenceIdeal.Read.val_main_v6 (F := Ideal) (m ((c.tc : Thread nD τ).loc main_arg1)) := (host2_v6 (W4 m ρ c)).trans (at4_v6 m ρ c)
theorem at5_v29 : W5 m ρ c (Proc.devRef .tc main_v29) = Cert.ReferenceIdeal.Read.val_main_v29 (F := Ideal) (m ((c.tc : Thread nD τ).loc main_arg1)) := (host2_v29 (W4 m ρ c)).trans (at4_v29 m ρ c)
theorem at5_arg2 : W5 m ρ c (Proc.devRef .tc main_arg2) = m ((c.tc : Thread nD τ).loc main_arg2) := (host2_arg2 (W4 m ρ c)).trans (at4_arg2 m ρ c)
theorem at5_arg7 : W5 m ρ c (Proc.devRef .tc main_arg7) = m ((c.tc : Thread nD τ).loc main_arg7) := (host2_arg7 (W4 m ρ c)).trans (at4_arg7 m ρ c)
theorem at5_arg8 : W5 m ρ c (Proc.devRef .tc main_arg8) = m ((c.tc : Thread nD τ).loc main_arg8) := (host2_arg8 (W4 m ρ c)).trans (at4_arg8 m ρ c)

set_option maxHeartbeats 4000000 in
/-- The second aggregation. -/
theorem at5_v56 : W5 m ρ c (Proc.devRef .tc main_v56)
    = Cert.ReferenceIdeal.Read.val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps2 (W4 m ρ c) (Proc.devRef .tc main_v56) = _
  after_results_simp
  rw [at4_v44, at4_v5, at4_v6, at4_v29]
  rfl

/-- The second bias as a row: column k holds b₂(k). -/
theorem at5_v57 (k : Fin 128) : (W5 m ρ c (Proc.devRef .tc main_v57) : S1x128.Idx → Ideal .f32) (ix2 (0 : Fin 1) k)
    = (m ((c.tc : Thread nD τ).loc main_arg6) : S128.Idx → Ideal .f32) (ix1 k) := by
  have e : (W5 m ρ c (Proc.devRef .tc main_v57) : S1x128.Idx → Ideal .f32)
      = shapeCast S1x128 (W4 m ρ c (Proc.devRef .tc main_arg6) : S128.Idx → Ideal .f32) shapeCasts_S128_S1x128 := by
    show StableHlo.after hostOps2 (W4 m ρ c) (Proc.devRef .tc main_v57) = _
    after_results_simp
    rfl
  rw [e, at4_arg6]
  exact rowOfVector_apply _ _ k

/-! ## After the third region -/

theorem at6_v5 : W6 m ρ c (Proc.devRef .tc main_v5) = Cert.ReferenceIdeal.Read.val_main_v5 (F := Ideal) (m ((c.tc : Thread nD τ).loc main_arg1)) := (W6_of_ne m ρ c main_v5 (by decide)).trans (at5_v5 m ρ c)
theorem at6_v6 : W6 m ρ c (Proc.devRef .tc main_v6) = Cert.ReferenceIdeal.Read.val_main_v6 (F := Ideal) (m ((c.tc : Thread nD τ).loc main_arg1)) := (W6_of_ne m ρ c main_v6 (by decide)).trans (at5_v6 m ρ c)
theorem at6_v29 : W6 m ρ c (Proc.devRef .tc main_v29) = Cert.ReferenceIdeal.Read.val_main_v29 (F := Ideal) (m ((c.tc : Thread nD τ).loc main_arg1)) := (W6_of_ne m ρ c main_v29 (by decide)).trans (at5_v29 m ρ c)
theorem at6_arg2 : W6 m ρ c (Proc.devRef .tc main_arg2) = m ((c.tc : Thread nD τ).loc main_arg2) := (W6_of_ne m ρ c main_arg2 (by decide)).trans (at5_arg2 m ρ c)
theorem at6_arg8 : W6 m ρ c (Proc.devRef .tc main_arg8) = m ((c.tc : Thread nD τ).loc main_arg8) := (W6_of_ne m ρ c main_arg8 (by decide)).trans (at5_arg8 m ρ c)

/-- The third region's result array holds max(s₂ + b₂, 0) · W₃: the reference's third matrix product. -/
theorem at6_v58 : W6 m ρ c (Proc.devRef .tc main_v58)
    = Cert.ReferenceIdeal.Read.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 3).trans ((Region2.array_eq (V5 m ρ) c (m ((c.tc : Thread nD τ).loc main_arg6)) (fun k => at5_v57 m ρ c k)).trans ?_)
  show Cert.LibDenseLayer.rowsTimes 100000 128 128 (Cert.LibDenseLayer.biasRelu 100000 128 (W5 m ρ c (Proc.devRef .tc main_v56)) (m ((c.tc : Thread nD τ).loc main_arg6)))
    (W5 m ρ c (Proc.devRef .tc main_arg7)) = _
  rw [at5_v56, at5_arg7]
  exact (Cert.ReferenceIdeal.Layers.layer3 _ _ _ _ _ _ _).symm

/-! ## After the last stretch: the result -/

set_option maxHeartbeats 4000000 in
/-- The result buffer ends at the reference's result term of the same arguments: the third aggregation, the last bias,
    and the mean over each graph's nodes are the reference's operations on the same operands. -/
theorem result_eq : W7 m ρ c (Proc.devRef .tc main_v85)
    = Cert.ReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps3 (W6 m ρ c) (Proc.devRef .tc main_v85) = _
  after_results_simp
  rw [at6_v58, at6_v5, at6_v6, at6_v29, at6_arg8, at6_arg2]
  rfl

end Cert.KernelIdeal.Boundaries

end
-- ==== Proof.lean ====
/-
  A three-layer graph convolution network with a mean pool over graphs, as a program with three pipelined matrix
  kernels, against the same network written with plain array operations.

  Both programs compute, from the edge list alone, every edge's endpoints (self loops appended) and its symmetric
  normalisation weight 1/√(deg(src)·deg(dst)); then, three times, a dense transform of the node features followed by
  an aggregation over edges (gather at the sources, scale by the edge weights, add up at the destinations); then the
  last bias and the mean over each graph's nodes. They differ only in the dense transforms. The reference writes
  h · W as one matrix product and applies bias and rectifier on whole arrays before the next product. The kernel
  program computes x · W₁, then max(s₁ + b₁, 0) · W₂, then max(s₂ + b₂, 0) · W₃, each in a kernel over twenty blocks of
  5000 rows, narrowing both factors to a 16-bit float format first. On the extended reals the narrowing is the
  identity, a row block of a product is the product of the row block, and a product accumulated into zeros is the
  plain sum over the contracted axis; so each kernel's output array is, entry by entry, the reference's matrix
  product of the same operands. Every other operation is the same operation on the same operands in both programs. No
  law of arithmetic beyond that is used, so the precondition (finite inputs) is never opened.

  The three frames: the two kernel programs' are the generated frame certificates; the reference's is its generated
  run with the result dropped. The idealisation rewrote nothing, so there is nothing to preserve. The equivalence:
  the kernel program's run with its result buffer read back (KernelRun), that buffer's contents traced boundary by
  boundary to the reference's result term (Boundaries, over Region0 … Region2, RefStages and LibDenseLayer), and the
  reference's generated run.
-/
import proofs.«182120_j61770219651564_1_alg».proof.Defs
import proofs.«182120_j61770219651564_1_alg».proof.Proof.Gen.Kernel
import proofs.«182120_j61770219651564_1_alg».proof.Proof.Gen.Kernel.Skeleton
import proofs.«182120_j61770219651564_1_alg».proof.Proof.Gen.Kernel.Launch
import proofs.«182120_j61770219651564_1_alg».proof.Proof.Gen.Kernel.Points
import proofs.«182120_j61770219651564_1_alg».proof.Proof.Gen.Kernel.Frame
import proofs.«182120_j61770219651564_1_alg».proof.Proof.Gen.KernelIdeal
import proofs.«182120_j61770219651564_1_alg».proof.Proof.Gen.KernelIdeal.Skeleton
import proofs.«182120_j61770219651564_1_alg».proof.Proof.Gen.KernelIdeal.Launch
import proofs.«182120_j61770219651564_1_alg».proof.Proof.Gen.KernelIdeal.Points
import proofs.«182120_j61770219651564_1_alg».proof.Proof.Gen.KernelIdeal.Frame
import proofs.«182120_j61770219651564_1_alg».proof.Proof.Gen.ReferenceIdeal
import proofs.«182120_j61770219651564_1_alg».proof.Proof.Gen.ReferenceIdeal.Read
import proofs.«182120_j61770219651564_1_alg».proof.Proof.Gen.Pre_finite_inputs
import proofs.«182120_j61770219651564_1_alg».proof.Proof.KernelRun
import proofs.«182120_j61770219651564_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs run, and the kernel program's result buffer ends at the
    reference's result term of its own arguments, which are the reference's. -/
theorem algebraic : Cert.algebraic_KernelIdeal_ReferenceIdeal := by
  intro m ρ m' ρ' _ hagree
  refine ⟨fun c => Cert.KernelIdeal.Gen.W7 m ρ c (Proc.devRef .tc Cert.KernelIdeal.main_v85),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v91_eq, h0, h1, h2, h3, h4, h5, h6, h7, h8]
  exact (Cert.KernelIdeal.Boundaries.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
